-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.BlockScale.lean ====
/-
  One block of the kernel scales the columns of 512 rows.

  At a grid point the body loads a block of 512 rows of the long matrix and the row [1, 4096], broadcasts the row
  down the 512 rows, multiplies entry by entry and stores the product over the whole output block.  Entry (r, n)
  of the broadcast row is entry (0, n) of the row, so entry (r, n) of what is stored is the block's entry (r, n)
  times the row's entry (0, n).
-/
import proofs.«181159_j75015898792222_2_alg».proof.Proof.Gen.KernelIdeal.Skeleton
import Idealize.ShloMosaic.Lib.ValueIdx
import Idealize.ShloMosaic.Lib.Pipeline.Value

noncomputable section

namespace Cert.KernelIdeal.ColumnScale

open Cert.KernelIdeal Cert.KernelIdeal.Gen
open Idealize.ShloMosaic Idealize.ShloMosaic.ValueIdx

variable {F : FTy → Type} [FloatOps F]

/-- The row broadcast down the block, read at (r, n), is the row at (0, n). -/
theorem row_down_block (v : FVec F S1x4096 .f32) (h : S1x4096.Broadcasts S512x4096) (r : Fin 512) (n : Fin 4096) :
    broadcastTo S512x4096 v h (ix2 r n) = v (ix2 (n0 := 1) 0 n) :=
  broadcastTo_apply v h (ix2 r n) (ix2 (n0 := 1) 0 n) (fun a => match a with
    | ⟨0, _⟩ => by show 0 = if (1 : Nat) = 1 then 0 else _; rw [if_pos rfl]
    | ⟨1, _⟩ => by show n.val = if (4096 : Nat) = 1 then 0 else n.val; rw [if_neg (by decide)])

/-- What the body stores, entry by entry: the loaded block's entry times the row's entry in the same column. -/
theorem stored_block (x0 : Vec F S512x4096 .f32) (x1 : Vec F S1x4096 .f32) (r : Fin 512) (n : Fin 4096) :
    k0_pay1 x0 x1 (ix2 r n) = FloatOps.mulf (x0 (ix2 r n)) (x1 (ix2 (n0 := 1) 0 n)) := by
  unfold k0_pay1
  rw [shapeCast_self, shapeCast_self]
  show FloatOps.mulf (x0 (ix2 r n)) (broadcastTo S512x4096 x1 _ (ix2 r n)) = _
  rw [row_down_block]

end Cert.KernelIdeal.ColumnScale

end
-- ==== Proof.ColumnScale.lean ====
/-
  Scaling the columns of a stack of matrices by a vector.

  For an array x of shape [4, 4096, 4096] and a vector d of length 4096 the result is

      scaleCols x d (b, p, n) = x (b, p, n) · d n .

  The same numbers can be laid out as ONE matrix of 4 · 4096 rows (row b · 4096 + p of the matrix is row p of
  slab b) with d as a single row [1, 4096]; there the product is `scaleRows`: entry (r, n) of the matrix times
  entry (0, n) of the row.  Re-laying the two arguments, scaling row by row, and re-laying the result back is
  `scaleCols` (`relaid_scaleRows`): (b, p, n) in the stack and (b · 4096 + p, n) in the matrix have the same
  row-major position, and column n stays column n.

  The product is a parameter: nothing here depends on which operation it is, so no property of the extended
  reals (and no finiteness of the inputs) is used.
-/
import Idealize.ShloMosaic.Lib.ValueIdx
import Idealize.ShloMosaic.Lib.Pipeline.Value

namespace Cert.ColumnScale

open Idealize.ShloMosaic Idealize.ShloMosaic.ValueIdx

/-- The stack of four 4096 × 4096 matrices. -/
abbrev Stack : Shape := ⟨3, ![4, 4096, 4096]⟩
/-- The same entries as one matrix of 16384 rows. -/
abbrev Flat : Shape := ⟨2, ![16384, 4096]⟩
/-- The scaling vector as a row. -/
abbrev Row : Shape := ⟨2, ![1, 4096]⟩
/-- The scaling vector. -/
abbrev Vector : Shape := ⟨1, ![4096]⟩

variable {α : Type} (mul : α → α → α)

/-- The vector's entry that scales entry (b, p, n) of the stack: n. -/
abbrev colOf (i : Stack.Idx) : Vector.Idx := ix1 (n := 4096) ⟨(i 2).val, (i 2).isLt⟩

/-- The row's entry that scales entry (r, n) of the long matrix: (0, n). -/
abbrev rowEntryOf (j : Flat.Idx) : Row.Idx := ix2 (n0 := 1) (n1 := 4096) 0 ⟨(j 1).val, (j 1).isLt⟩

/-- Column n of every matrix of the stack multiplied by entry n of the vector. -/
def scaleCols (x : Stack.Idx → α) (d : Vector.Idx → α) : Stack.Idx → α :=
  fun i => mul (x i) (d (colOf i))

/-- Column n of the one long matrix multiplied by entry (0, n) of the row. -/
def scaleRows (a : Flat.Idx → α) (r : Row.Idx → α) : Flat.Idx → α :=
  fun j => mul (a j) (r (rowEntryOf j))

/-- `scaleRows` at an entry given by its coordinates. -/
theorem scaleRows_at (a : Flat.Idx → α) (r : Row.Idx → α) (q : Fin 16384) (n : Fin 4096) :
    scaleRows mul a r (ix2 q n) = mul (a (ix2 q n)) (r (ix2 (n0 := 1) 0 n)) := rfl

/-- `scaleCols` at an entry given by its coordinates. -/
theorem scaleCols_at (x : Stack.Idx → α) (d : Vector.Idx → α) (b : Fin 4) (p : Fin 4096) (n : Fin 4096) :
    scaleCols mul x d (ix3 b p n) = mul (x (ix3 b p n)) (d (ix1 n)) := rfl

/-- Row b · 4096 + p of the long matrix. -/
abbrev flatRow (b : Fin 4) (p : Fin 4096) : Fin 16384 := ⟨b.val * 4096 + p.val, by have := b.isLt; have := p.isLt; omega⟩

/-- Entry (b, p, n) of the stack and entry (b · 4096 + p, n) of the long matrix sit at one row-major position. -/
theorem flat_position (b : Fin 4) (p : Fin 4096) (n : Fin 4096) :
    (Flat.rowMajor (ix2 (flatRow b p) n)).val = (Stack.rowMajor (ix3 b p n)).val := by
  rw [Shape.rowMajor_val_two, Shape.rowMajor_val_three]
  rfl

/-- Entry n of the vector and entry (0, n) of the row sit at one row-major position. -/
theorem row_position (n : Fin 4096) :
    (Vector.rowMajor (ix1 n)).val = (Row.rowMajor (ix2 (n0 := 1) 0 n)).val := by
  rw [Shape.rowMajor_val_one, Shape.rowMajor_val_two]
  show n.val = 0 * 4096 + n.val
  omega

/-- The re-laid product at an entry given by its coordinates. -/
theorem relaid_scaleRows_at (x : Stack.Idx → α) (d : Vector.Idx → α)
    (h1 : Stack.ShapeCasts Flat) (h2 : Vector.ShapeCasts Row) (h3 : Flat.ShapeCasts Stack)
    (b : Fin 4) (p : Fin 4096) (n : Fin 4096) :
    shapeCast Stack (scaleRows mul (shapeCast Flat x h1) (shapeCast Row d h2)) h3 (ix3 b p n)
      = mul (x (ix3 b p n)) (d (ix1 n)) := by
  rw [shapeCast_apply _ h3 (ix3 b p n) (ix2 (flatRow b p) n) (flat_position b p n), scaleRows_at,
    shapeCast_apply x h1 (ix2 (flatRow b p) n) (ix3 b p n) (flat_position b p n).symm,
    shapeCast_apply d h2 (ix2 (n0 := 1) 0 n) (ix1 n) (row_position n)]

/-- Re-lay the stack as one long matrix and the vector as a row, scale, re-lay back: the columns of the stack
    scaled. -/
theorem relaid_scaleRows (x : Stack.Idx → α) (d : Vector.Idx → α)
    (h1 : Stack.ShapeCasts Flat) (h2 : Vector.ShapeCasts Row) (h3 : Flat.ShapeCasts Stack) :
    shapeCast Stack (scaleRows mul (shapeCast Flat x h1) (shapeCast Row d h2)) h3 = scaleCols mul x d := by
  funext i
  obtain ⟨b, p, n, rfl⟩ : ∃ (b : Fin 4) (p : Fin 4096) (n : Fin 4096), i = ix3 b p n := ⟨i 0, i 1, i 2, eq_ix3 i⟩
  rw [scaleCols_at]
  exact relaid_scaleRows_at mul x d h1 h2 h3 b p n

end Cert.ColumnScale
-- ==== Proof.KernelBlocks.lean ====
/-
  The long matrix after the kernel's region: its columns scaled by the row.

  The grid has 32 points.  Point t stages rows 512·t … 512·t + 511 of the long matrix (all 4096 columns), always
  the same single row, and writes back rows 512·t … 512·t + 511 of the output.  What it writes back at (r, n) of its
  block is the staged block's entry (r, n) times the row's entry (0, n), which is entry (512·t + r, n) of
  `scaleRows` of the long matrix and the row.  The 32 blocks cover all 16384 rows (row q lies in block q / 512),
  so after the region the output IS `scaleRows` of the two arrays the region found.
-/
import proofs.«181159_j75015898792222_2_alg».proof.Proof.Gen.KernelIdeal.Frame
import proofs.«181159_j75015898792222_2_alg».proof.Proof.BlockScale
import proofs.«181159_j75015898792222_2_alg».proof.Proof.ColumnScale
import Idealize.ShloMosaic.Lib.Pipeline.Value

noncomputable section

namespace Cert.KernelIdeal.ColumnScale

open Cert.KernelIdeal Cert.KernelIdeal.Gen Cert.ColumnScale
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem zero_offsets : (![0, 0] : Fin 2 → Nat) = fun _ => 0 := funext fun a => by fin_cases a <;> rfl

/-- The row's entry under entry (r, n) of a block: (0, n). -/
abbrev rowUnder (y : S512x4096.Idx) : S1x4096.Idx := ix2 (n0 := 1) (n1 := 4096) 0 ⟨(y 1).val, (y 1).isLt⟩

/-- What the body stores, as one function of the block's index. -/
theorem stored_block_fn (x0 : Vec F S512x4096 .f32) (x1 : Vec F S1x4096 .f32) :
    k0_pay1 x0 x1 = fun y => FloatOps.mulf (x0 y) (x1 (rowUnder y)) := by
  funext y
  obtain ⟨r, n, rfl⟩ : ∃ (r : Fin 512) (n : Fin 4096), y = ix2 r n := ⟨y 0, y 1, eq_ix2 y⟩
  exact stored_block x0 x1 r n

/-- The block index maps over the 32 grid points: the input block moves with the output block, the row's block
    stays at (0, 0), and the output's block column is 0. -/
theorem block_indices : ∀ t : Fin cfg0.N,
    win0_0.index t (0 : Fin 2) = win0_2.index t (0 : Fin 2)
    ∧ win0_0.index t (1 : Fin 2) = win0_2.index t (1 : Fin 2)
    ∧ win0_1.index t (0 : Fin 2) = 0
    ∧ win0_1.index t (1 : Fin 2) = win0_2.index t (1 : Fin 2)
    ∧ win0_2.index t (0 : Fin 2) ≤ 31
    ∧ win0_2.index t (1 : Fin 2) = 0 :=
  (by decide +kernel : ∀ t : Fin grid0.N, _)

/-- Every one of the 32 row blocks is some point's output block. -/
theorem block_onto : ∀ q : Fin 32, ∃ t : Fin cfg0.N, win0_2.index t = ![q.val, 0] :=
  (by decide +kernel : ∀ q : Fin 32, ∃ t : Fin grid0.N, win0_2.index t = ![q.val, 0])

/-- What point t writes back is block t of the long matrix with its columns scaled by the row. -/
theorem flushed_rows (c : Dev nD) (t : Fin cfg0.N) :
    (dats m 0 c).flushed 2 t = ((cfg0.win 2).blk t).view.read (Elt F)
      (scaleRows (FloatOps.mulf : F .f32 → F .f32 → F .f32) (V m c main_v0) (V m c main_v1)) := by
  show (cfg0.win 2).cut (grid0.coords t) ((dats m 0 c).after 2 t) = _
  rw [after0_2]
  unfold out0_2
  rw [View.canon_unit_zero zero_offsets]
  simp only [View.ld_unit_zero (S := S512x4096) zero_offsets, View.ld_unit_zero (S := S1x4096) zero_offsets]
  rw [stored_block_fn]
  obtain ⟨e0, e1, e2, e3, e4, e5⟩ := block_indices t
  funext j
  show FloatOps.mulf (V m c main_v0 (((cfg0.win 0).blk t).view.emb j)) (V m c main_v1 (((cfg0.win 1).blk t).view.emb (rowUnder j)))
    = FloatOps.mulf (V m c main_v0 (((cfg0.win 2).blk t).view.emb j)) (V m c main_v1 (rowEntryOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (rowUnder j) = rowEntryOf (((cfg0.win 2).blk t).view.emb j) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  rw [h0, h1]

/-- An entry of the output lies in point t's block when each coordinate lies in the block's range on its axis. -/
theorem mem_block (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v2).slice (win0_2.rect t)).set ↔ _
  rw [View.set_slice_whole, Rect.mem_set_unit]
  exact Iff.rfl

/-- Every entry (q, n) of the output is written back by some point: the one whose block row is q / 512. -/
theorem rows_covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- After the region the output array is the long matrix, as the region found it, with its columns scaled by the
    row as the region found it. -/
theorem region_output (c : Dev nD) :
    (dats m 0 c).arrAt 2 cfg0.N
      = scaleRows (FloatOps.mulf : F .f32 → F .f32 → F .f32) (V m c main_v0) (V m c main_v1) :=
  (dats m 0 c).arrAt_eq_of_cover 2 _ (fun t _ => flushed_rows m c t) rows_covered

end Cert.KernelIdeal.ColumnScale

end
-- ==== Proof.KernelRun.lean ====
/-
  The kernel's program, end to end: the stack's columns scaled by the vector.

  Before the region the program re-lays the stack [4, 4096, 4096] as the long matrix [16384, 4096] and the vector
  [4096] as the row [1, 4096]; the region leaves the long matrix with its columns scaled by the row; after the
  region the program re-lays that matrix back as a stack.  By `relaid_scaleRows` the result is the stack's
  columns scaled by the vector, entry (b, p, n) being x (b, p, n) · d n.
-/
import proofs.«181159_j75015898792222_2_alg».proof.Proof.KernelBlocks

noncomputable section

namespace Cert.KernelIdeal.ColumnScale

open Cert.KernelIdeal Cert.KernelIdeal.Gen Cert.ColumnScale
open Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ) (ρ : Dev nD → PrngReg)

/-- The long matrix the region finds is the stack as launched, re-laid. -/
theorem found_matrix (c : Dev nD) :
    (V m c main_v0 : S16384x4096.Idx → Elt F .f32)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The row the region finds is the vector as launched, re-laid. -/
theorem found_row (c : Dev nD) :
    (V m c main_v1 : S1x4096.Idx → Elt F .f32)
      = shapeCast S1x4096 (m ((c : Thread nD τ).loc main_arg1)) shapeCasts_S4096_S1x4096 := by
  show StableHlo.after hostOps0 (fun b => m (c, b)) (Proc.devRef .tc main_v1) = _
  after_results
  rfl

/-- The program's result is the region's output re-laid as a stack. -/
theorem result_relaid (c : Dev nD) :
    (Pipeline.afterTail₀ cfgs (dats m) 0 (V0 m) [hostOps1] c main_v3 : S4x4096x4096.Idx → Elt F .f32)
      = shapeCast S4x4096x4096 ((dats m 0 c).arrAt 2 cfg0.N) shapeCasts_S16384x4096_S4x4096x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c _ _ 2
  rw [e]
  rfl

/-- The program's result is the stack as launched with column n of every matrix scaled by entry n of the vector
    as launched. -/
theorem result_scaleCols (c : Dev nD) :
    (Pipeline.afterTail₀ cfgs (dats m) 0 (V0 m) [hostOps1] c main_v3 : S4x4096x4096.Idx → Elt F .f32)
      = scaleCols (FloatOps.mulf : F .f32 → F .f32 → F .f32)
          (m ((c : Thread nD τ).loc main_arg0)) (m ((c : Thread nD τ).loc main_arg1)) := by
  rw [result_relaid, region_output, found_matrix, found_row]
  exact relaid_scaleRows _ _ _ _ _ _

/-- Every weakly fair execution of the kernel's program terminates with its result the stack's columns scaled by
    the vector and its two arguments as launched. -/
theorem run : θ_run defs (onTc (τ := τ) (main (F := F))) ⟨m, fun _ => 0, ρ⟩ fun r => ∀ c : Dev nD,
      r.2.mem ((c : Thread nD τ).loc main_v3)
        = scaleCols (FloatOps.mulf : F .f32 → F .f32 → F .f32)
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_scaleCols m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ColumnScale

end
-- ==== Proof.ReferenceScale.lean ====
/-
  The reference computes `scaleCols`.

  The reference broadcasts the vector d to [1, 1, 4096], then to [4, 4096, 4096], and multiplies the stack by it
  entry by entry.  Entry (b, p, n) of the twice-broadcast vector is d n (each broadcast keeps the last coordinate
  and sets the new leading ones to 0), so entry (b, p, n) of the product is x (b, p, n) · d n.
-/
import proofs.«181159_j75015898792222_2_alg».proof.Proof.Gen.ReferenceIdeal.Read
import proofs.«181159_j75015898792222_2_alg».proof.Proof.ColumnScale

noncomputable section

namespace Cert.ReferenceIdeal.ColumnScale

open Cert.ReferenceIdeal Cert.ReferenceIdeal.Read Cert.ColumnScale
open Idealize.ShloMosaic Idealize.ShloMosaic.ValueIdx

variable {F : FTy → Type} [FloatOps F]

/-- The operand index the two broadcasts read at (b, p, n) is n. -/
theorem broadcast_index (i : S4x4096x4096.Idx) : idx_main_v0 (idx_main_v1 i) = colOf i :=
  funext fun a => match a with | ⟨0, _⟩ => rfl

/-- The reference's product, stage by stage, is the stack's columns scaled by the vector. -/
theorem reference_scaleCols (x : (⟨S4x4096x4096, .f32⟩ : BufTy).Contents (Elt F)) (d : (⟨S4096, .f32⟩ : BufTy).Contents (Elt F)) :
    val_main_v2 (F := F) x d = scaleCols (FloatOps.mulf : F .f32 → F .f32 → F .f32) x d := by
  funext i
  rw [val_main_v2_apply, val_main_v1_apply, val_main_v0_apply, broadcast_index]
  rfl

end Cert.ReferenceIdeal.ColumnScale

end
-- ==== Proof.lean ====
/-
  The kernel and its reference compute the same array: a stack x of four 4096 × 4096 matrices with column n of
  every matrix multiplied by entry n of a vector d,

      result (b, p, n) = x (b, p, n) · d n .

  The reference broadcasts d along the two leading axes and multiplies entry by entry.  The kernel re-lays the
  stack as one matrix of 16384 rows and d as a row, multiplies, over a grid of 32 points, each block of 512 rows
  entry by entry with the row broadcast down the block, and re-lays the product back as a stack.  Re-laying
  keeps row-major positions, so entry (b, p, n) of the stack is entry (b · 4096 + p, n) of the long matrix and
  its column is still n: both programs multiply the same two numbers at every entry.  The one product on each
  side is the same operation on the same operands, so the equality holds on all extended reals and the
  finiteness of the inputs is never used.

  The frames of the two kernel programs are the generated ones; the reference's frame is its run with the result
  forgotten; the kernel's idealization rewrote nothing, so there is nothing to preserve.
-/
import proofs.«181159_j75015898792222_2_alg».proof.Defs
import proofs.«181159_j75015898792222_2_alg».proof.Proof.Gen.Kernel
import proofs.«181159_j75015898792222_2_alg».proof.Proof.Gen.Kernel.Skeleton
import proofs.«181159_j75015898792222_2_alg».proof.Proof.Gen.Kernel.Launch
import proofs.«181159_j75015898792222_2_alg».proof.Proof.Gen.Kernel.Points
import proofs.«181159_j75015898792222_2_alg».proof.Proof.Gen.Kernel.Frame
import proofs.«181159_j75015898792222_2_alg».proof.Proof.Gen.KernelIdeal
import proofs.«181159_j75015898792222_2_alg».proof.Proof.Gen.KernelIdeal.Skeleton
import proofs.«181159_j75015898792222_2_alg».proof.Proof.Gen.KernelIdeal.Launch
import proofs.«181159_j75015898792222_2_alg».proof.Proof.Gen.KernelIdeal.Points
import proofs.«181159_j75015898792222_2_alg».proof.Proof.Gen.KernelIdeal.Frame
import proofs.«181159_j75015898792222_2_alg».proof.Proof.Gen.ReferenceIdeal
import proofs.«181159_j75015898792222_2_alg».proof.Proof.Gen.ReferenceIdeal.Run
import proofs.«181159_j75015898792222_2_alg».proof.Proof.Gen.ReferenceIdeal.Read
import proofs.«181159_j75015898792222_2_alg».proof.Proof.Gen.Pre_finite_inputs
import proofs.«181159_j75015898792222_2_alg».proof.Proof.KernelRun
import proofs.«181159_j75015898792222_2_alg».proof.Proof.ReferenceScale
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the stack and the vector, both programs end with the stack's columns scaled by the
    vector: the kernel through the long matrix and back, the reference through its two broadcasts. -/
theorem algebraic : Cert.algebraic_KernelIdeal_ReferenceIdeal := by
  intro m ρ m' ρ' _ hagree
  refine ⟨fun c => Cert.ColumnScale.scaleCols (FloatOps.mulf : Ideal .f32 → Ideal .f32 → Ideal .f32)
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ColumnScale.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.ColumnScale.reference_scaleCols,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
